-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x8x32 : Shape := ⟨4, ![1, 1024, 8, 32]⟩
abbrev S_ : Shape := ⟨0, ![]⟩

class Facts : Prop where
  bcast_S_S1x1024x8x32 : S_.BroadcastsInDim S1x1024x8x32 (![] : Fin 0 → Fin S1x1024x8x32.rank)
  reducesTo_S1x1024x8x32_S_d0_1_2_3 : S1x1024x8x32.ReducesTo [0, 1, 2, 3] S_
  h_S_ : 0 < S_.numel

variable [Facts]

def fn {F : FTy → Type} [FloatOps F] (main_arg0 : FVec F S1x1024x8x32 .f32) (main_arg1 : FVec F S1x1024x8x32 .f32) : IVec S_ 1 :=
  let main_v0 : FVec F S1x1024x8x32 .f32 := Host.absf main_arg0
  let main_cst : FVec F S_ .f32 := constant S_ .f32 0x7F800000#32
  let main_v1 : FVec F S1x1024x8x32 .f32 := broadcastInDim S1x1024x8x32 ![] bcast_S_S1x1024x8x32 main_cst
  let main_v2 : IVec S1x1024x8x32 1 := cmpf .olt main_v0 main_v1
  let main_c : IVec S_ 1 := constantI S_ 1 1#1
  let main_v3 : IVec S_ 1 := (fun x v => Host.reduce IntOp.andi x v reducesTo_S1x1024x8x32_S_d0_1_2_3 h_S_) main_v2 main_c
  let main_v4 : FVec F S1x1024x8x32 .f32 := Host.absf main_arg1
  let main_cst_0 : FVec F S_ .f32 := constant S_ .f32 0x7F800000#32
  let main_v5 : FVec F S1x1024x8x32 .f32 := broadcastInDim S1x1024x8x32 ![] bcast_S_S1x1024x8x32 main_cst_0
  let main_v6 : IVec S1x1024x8x32 1 := cmpf .olt main_v4 main_v5
  let main_c_1 : IVec S_ 1 := constantI S_ 1 1#1
  let main_v7 : IVec S_ 1 := (fun x v => Host.reduce IntOp.andi x v reducesTo_S1x1024x8x32_S_d0_1_2_3 h_S_) main_v6 main_c_1
  let main_v8 : IVec S_ 1 := andi main_v3 main_v7
  main_v8
-- ==== Kernel.lean ====
abbrev S1x1024x8x32 : Shape := ⟨4, ![1, 1024, 8, 32]⟩
abbrev S1024x8x32 : Shape := ⟨3, ![1024, 8, 32]⟩
abbrev S32x8x1024 : Shape := ⟨3, ![32, 8, 1024]⟩
abbrev S8x1024x1024 : Shape := ⟨3, ![8, 1024, 1024]⟩
abbrev S32x8x256 : Shape := ⟨3, ![32, 8, 256]⟩
abbrev S8x256x256 : Shape := ⟨3, ![8, 256, 256]⟩
abbrev S1x8x256 : Shape := ⟨3, ![1, 8, 256]⟩
abbrev S8x256 : Shape := ⟨2, ![8, 256]⟩
abbrev S8x256x1 : Shape := ⟨3, ![8, 256, 1]⟩
abbrev S8x1x256 : Shape := ⟨3, ![8, 1, 256]⟩
abbrev S1024x1024x8 : Shape := ⟨3, ![1024, 1024, 8]⟩
abbrev S1x1024x1024x8 : Shape := ⟨4, ![1, 1024, 1024, 8]⟩

abbrev nBuf : Space → Nat
  | .hbm => 9
  | .vmem => 6
  | .smem => 0
  | _ => 0

abbrev bufTy : (tb : Table) → Fin (tcTables nBuf tb) → BufTy
  | .hbm, ⟨0, _⟩ => ⟨S1x1024x8x32, .f32⟩
  | .hbm, ⟨1, _⟩ => ⟨S1x1024x8x32, .f32⟩
  | .hbm, ⟨2, _⟩ => ⟨S1024x8x32, .f32⟩
  | .hbm, ⟨3, _⟩ => ⟨S32x8x1024, .f32⟩
  | .hbm, ⟨4, _⟩ => ⟨S1024x8x32, .f32⟩
  | .hbm, ⟨5, _⟩ => ⟨S32x8x1024, .f32⟩
  | .hbm, ⟨6, _⟩ => ⟨S8x1024x1024, .f32⟩
  | .hbm, ⟨7, _⟩ => ⟨S1024x1024x8, .f32⟩
  | .hbm, ⟨8, _⟩ => ⟨S1x1024x1024x8, .f32⟩
  | .local _ .vmem, ⟨0, _⟩ => ⟨S32x8x256, .f32⟩
  | .local _ .vmem, ⟨1, _⟩ => ⟨S32x8x256, .f32⟩
  | .local _ .vmem, ⟨2, _⟩ => ⟨S32x8x256, .f32⟩
  | .local _ .vmem, ⟨3, _⟩ => ⟨S32x8x256, .f32⟩
  | .local _ .vmem, ⟨4, _⟩ => ⟨S8x256x256, .f32⟩
  | .local _ .vmem, ⟨5, _⟩ => ⟨S8x256x256, .f32⟩
  | _, _ => ⟨S1x1024x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v8 : Index := Scalar.indexCast arg5
  let c0_5 : Index := 0#32
  let c0_6 : Index := 0#32
  ![v8.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S32x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x1024x8x32_S1024x8x32 : S1x1024x8x32.ShapeCasts S1024x8x32
  transposes_S1024x8x32_S32x8x1024_2_1_0 : S1024x8x32.Transposes [2, 1, 0] S32x8x1024
  h_S1x8x256 : 0 < S1x8x256.numel
  shapeCasts_S1x8x256_S8x256 : S1x8x256.ShapeCasts S8x256
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  inb_S8x256x256_S8x256x256_0_0_0 : ∀ a, (![0, 0, 0] : Fin 3 → Nat) a + S8x256x256.size a ≤ S8x256x256.size a
  h_S8x256x256 : 0 < S8x256x256.numel
  transposes_S8x1024x1024_S1024x1024x8_1_2_0 : S8x1024x1024.Transposes [1, 2, 0] S1024x1024x8
  bcast_S1024x1024x8_S1x1024x1024x8_1_2_3 : S1024x1024x8.BroadcastsInDim S1x1024x1024x8 (![1, 2, 3] : Fin 3 → Fin S1x1024x1024x8.rank)
  hrank0 : 0 < grid0.rank
  k0_t1_ok : k0_t1_loop.OK
  k0_off1_inb : ∀ k0_t1 : Fin k0_t1_loop.trips, ∀ a, (k0_off1 k0_t1) a + S1x8x256.size a ≤ S32x8x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8x256.size a ≤ S32x8x1024.size a
  hwx0_0 : ∀ i : grid0.Coords, EltTy.bits .f32 = 32 ∨ (Rect.block (s := S32x8x1024) S32x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8x256.size a ≤ S32x8x1024.size a
  hwx0_1 : ∀ i : grid0.Coords, EltTy.bits .f32 = 32 ∨ (Rect.block (s := S32x8x1024) S32x8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S8x1024x1024.size a
  hwx0_2 : ∀ i : grid0.Coords, EltTy.bits .f32 = 32 ∨ (Rect.block (s := S8x1024x1024) S8x256x256.size (cc0_transform_2 i) (hinb0_2 i)).WholeWords (EltTy.packing .f32)

variable [Facts₀]

abbrev win0_0 : Pipeline.Window sig grid0 :=
  Pipeline.Window.ofSpec (Memref.whole main_v1) S32x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1024x8x32 : Shape := ⟨4, ![1, 1024, 8, 32]⟩
abbrev S1x1024x1x8x32 : Shape := ⟨5, ![1, 1024, 1, 8, 32]⟩
abbrev S1x1x1024x8x32 : Shape := ⟨5, ![1, 1, 1024, 8, 32]⟩
abbrev S1x1024x1024x8x32 : Shape := ⟨5, ![1, 1024, 1024, 8, 32]⟩
abbrev S_ : Shape := ⟨0, ![]⟩
abbrev S1x1024x1024x8 : Shape := ⟨4, ![1, 1024, 1024, 8]⟩

abbrev nBuf : Space → Nat
  | .hbm => 14
  | .vmem => 0
  | .smem => 0
  | _ => 0

abbrev bufTy : (tb : Table) → Fin (tcTables nBuf tb) → BufTy
  | .hbm, ⟨0, _⟩ => ⟨S1x1024x8x32, .f32⟩
  | .hbm, ⟨1, _⟩ => ⟨S1x1024x8x32, .f32⟩
  | .hbm, ⟨2, _⟩ => ⟨S1x1024x1x8x32, .f32⟩
  | .hbm, ⟨3, _⟩ => ⟨S1x1x1024x8x32, .f32⟩
  | .hbm, ⟨4, _⟩ => ⟨S1x1024x1024x8x32, .f32⟩
  | .hbm, ⟨5, _⟩ => ⟨S1x1024x1024x8x32, .f32⟩
  | .hbm, ⟨6, _⟩ => ⟨S1x1024x1024x8x32, .f32⟩
  | .hbm, ⟨7, _⟩ => ⟨S1x1024x1024x8x32, .f32⟩
  | .hbm, ⟨8, _⟩ => ⟨S_, .f32⟩
  | .hbm, ⟨9, _⟩ => ⟨S1x1024x1024x8, .f32⟩
  | .hbm, ⟨10, _⟩ => ⟨S1x1024x1024x8, .f32⟩
  | .hbm, ⟨11, _⟩ => ⟨S_, .f32⟩
  | .hbm, ⟨12, _⟩ => ⟨S1x1024x1024x8, .f32⟩
  | .hbm, ⟨13, _⟩ => ⟨S1x1024x1024x8, .f32⟩
  | _, _ => ⟨S1x1024x8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S1x1024x8x32_S1x1024x1x8x32_0_1_3_4 : S1x1024x8x32.BroadcastsInDim S1x1024x1x8x32 (![0, 1, 3, 4] : Fin 4 → Fin S1x1024x1x8x32.rank)
  bcast_S1x1024x8x32_S1x1x1024x8x32_0_2_3_4 : S1x1024x8x32.BroadcastsInDim S1x1x1024x8x32 (![0, 2, 3, 4] : Fin 4 → Fin S1x1x1024x8x32.rank)
  bcast_S1x1024x1x8x32_S1x1024x1024x8x32_0_1_2_3_4 : S1x1024x1x8x32.BroadcastsInDim S1x1024x1024x8x32 (![0, 1, 2, 3, 4] : Fin 5 → Fin S1x1024x1024x8x32.rank)
  bcast_S1x1x1024x8x32_S1x1024x1024x8x32_0_1_2_3_4 : S1x1x1024x8x32.BroadcastsInDim S1x1024x1024x8x32 (![0, 1, 2, 3, 4] : Fin 5 → Fin S1x1024x1024x8x32.rank)
  reducesTo_S1x1024x1024x8x32_S1x1024x1024x8_d4 : S1x1024x1024x8x32.ReducesTo [4] S1x1024x1024x8
  h_S_ : 0 < S_.numel
  bcast_S_S1x1024x1024x8 : S_.BroadcastsInDim S1x1024x1024x8 (![] : Fin 0 → Fin S1x1024x1024x8.rank)

variable [Facts₀]

class Facts : Prop extends Facts₀ where

variable [Facts]
-- ==== Proof.L1Spec.lean ====
/-
  The function both programs compute, stated over the argument arrays alone.

  For q, k : [1, 1024, 8, 32] the result at (0, s, t, h) is

      -(0 + Σ_w |q[0,s,h,w] − k[0,t,h,w]|) · c,

  the negated L1 distance between row (s, h) of q and row (t, h) of k, times the constant c
  (the float nearest to 1/√32, one and the same word in both programs, never evaluated).
  |x| is max x (−x) on the extended reals. The only law needed between the two programs is that a
  left-to-right running sum started from z equals z plus the finite sum, which holds on the extended
  reals because addition there is associative; no finiteness of the entries is used.
-/
import Idealize.ShloMosaic.PureOps.Ideal
import Idealize.ShloMosaic.PureOps.Ideal.Laws
import Idealize.ShloMosaic.Lib.ValueIdx

noncomputable section

namespace L1Attn

open Idealize.ShloMosaic Idealize.ShloMosaic.ValueIdx
open scoped BigOperators

/-- The shape of each argument, [1, 1024, 8, 32], and of the result, [1, 1024, 1024, 8]. -/
abbrev SArg : Shape := ⟨4, ![1, 1024, 8, 32]⟩
abbrev SRes : Shape := ⟨4, ![1, 1024, 1024, 8]⟩

/-- The constant factor: the word both programs multiply by. -/
def scale : EReal := Ideal.ofBits .f32 0x3E3504F3#32

/-- The starting value of both sums: the zero word. -/
def zero : EReal := Ideal.ofBits .f32 0x00000000#32

/-- |q[0,s,h,w] − k[0,t,h,w]|, with |x| = max x (−x). -/
def gap (q k : SArg.Idx → EReal) (s t : Fin 1024) (h : Fin 8) (w : Fin 32) : EReal :=
  max (q (ix4 (0 : Fin 1) s h w) - k (ix4 (0 : Fin 1) t h w)) (-(q (ix4 (0 : Fin 1) s h w) - k (ix4 (0 : Fin 1) t h w)))

/-- The result at (0, s, t, h). -/
def score (q k : SArg.Idx → EReal) (s t : Fin 1024) (h : Fin 8) : EReal :=
  (-(zero + ∑ w : Fin 32, gap q k s t h w)) * scale

/-- The result array as one function of the two argument arrays. -/
def G (q k : SArg.Idx → EReal) : SRes.Idx → EReal := fun j =>
  score q k ⟨(j 1).val, (j 1).isLt⟩ ⟨(j 2).val, (j 2).isLt⟩ ⟨(j 3).val, (j 3).isLt⟩

theorem G_apply (q k : SArg.Idx → EReal) (u : Fin 1) (s t : Fin 1024) (h : Fin 8) :
    G q k (ix4 u s t h) = score q k s t h := rfl

/-- A running sum: start from z, add g 0, g 1, … in that order. -/
def runSum (z : EReal) (g : ℕ → EReal) : ℕ → EReal
  | 0 => z
  | n + 1 => runSum z g n + g n

/-- The running sum after n steps is z plus the sum of the first n terms. -/
theorem runSum_eq (z : EReal) (g : ℕ → EReal) (n : ℕ) : runSum z g n = z + ∑ w ∈ Finset.range n, g w := by
  induction n with
  | zero => simp [runSum]
  | succ n ih => rw [runSum, ih, Finset.sum_range_succ, add_assoc]

/-- Subtracting from the zero word negates. -/
theorem zero_sub_eq (x : EReal) : zero - x = -x := by
  unfold zero
  rw [Ideal.ofBits_zero_f32, sub_eq_add_neg, zero_add]

end L1Attn

end
-- ==== Proof.L1Reference.lean ====
/-
  The reference program's result is G.

  The reference program replicates q along a new third axis and k along a new second axis, so that at
  the five-dimensional index (0, s, t, h, w) the two replicated arrays hold q[0,s,h,w] and k[0,t,h,w].
  It subtracts, takes absolute values, sums over the last axis starting from the zero word, negates,
  and multiplies by the constant word. Read at the index (u, s, t, h), with u the only point of an
  axis of size one, that is

      (−(0 + Σ_w |q[0,s,h,w] − k[0,t,h,w]|)) · c,

  the value of G there. Each stage is read at an index by the generated lemma for that stage; the
  index maps compose to (0, s, h, w) on the q side and (0, t, h, w) on the k side, coordinate by
  coordinate. The two float words are never evaluated: they appear as the same words on both sides.
-/
import proofs.«119868_j523986010475_2_alg».proof.Proof.Gen.ReferenceIdeal.Read
import proofs.«119868_j523986010475_2_alg».proof.Proof.L1Spec
import Idealize.ShloMosaic.Lib.ValueIdx
import Idealize.ShloMosaic.PureOps.Ideal

noncomputable section

namespace Cert.ReferenceIdeal.RefValue

open Idealize.ShloMosaic Idealize.ShloMosaic.ValueIdx Cert.ReferenceIdeal Cert.ReferenceIdeal.Read
open scoped BigOperators

/-- Through the sum axis and the two replications of q, the result index (u, s, t, h) and the summation
    variable w reach the argument index (0, s, h, w): the replicated axis t is dropped. -/
theorem qIdx (u : Fin 1) (s t : Fin 1024) (h : Fin 8) (w : Fin 32) :
    idx_main_v0 (idx_main_v2 (idx_main_v6 (ix4 u s t h) w)) = ix4 (0 : Fin 1) s h w :=
  funext fun a => Fin.ext (by
    match a with
    | ⟨0, _⟩ => rfl
    | ⟨1, _⟩ => rfl
    | ⟨2, _⟩ => rfl
    | ⟨3, _⟩ => rfl)

/-- Through the sum axis and the two replications of k, the result index (u, s, t, h) and the summation
    variable w reach the argument index (0, t, h, w): the replicated axis s is dropped. -/
theorem kIdx (u : Fin 1) (s t : Fin 1024) (h : Fin 8) (w : Fin 32) :
    idx_main_v1 (idx_main_v3 (idx_main_v6 (ix4 u s t h) w)) = ix4 (0 : Fin 1) t h w :=
  funext fun a => Fin.ext (by
    match a with
    | ⟨0, _⟩ => rfl
    | ⟨1, _⟩ => rfl
    | ⟨2, _⟩ => rfl
    | ⟨3, _⟩ => rfl)

/-- The absolute difference stage, read under the sum, is |q[0,s,h,w] − k[0,t,h,w]|. -/
theorem v5_read (q k : (⟨S1x1024x8x32, .f32⟩ : BufTy).Contents (Elt Ideal))
    (u : Fin 1) (s t : Fin 1024) (h : Fin 8) (w : Fin 32) :
    val_main_v5 (F := Ideal) q k (idx_main_v6 (ix4 u s t h) w) = L1Attn.gap q k s t h w := by
  rw [val_main_v5_apply, val_main_v4_apply, val_main_v2_apply, val_main_v0_apply,
    val_main_v3_apply, val_main_v1_apply, qIdx, kIdx]
  rfl

/-- The reference program's result is G. -/
theorem ref_eq (q k : (⟨S1x1024x8x32, .f32⟩ : BufTy).Contents (Elt Ideal)) :
    val_main_v9 (F := Ideal) q k = L1Attn.G q k := by
  funext i
  obtain ⟨u, s, t, h, rfl⟩ : ∃ (u : Fin 1) (s t : Fin 1024) (h : Fin 8), i = ix4 u s t h :=
    ⟨i 0, i 1, i 2, i 3, eq_ix4 i⟩
  rw [L1Attn.G_apply]
  unfold L1Attn.score
  rw [val_main_v9_apply, val_main_v7_apply, val_main_v6_apply, val_main_v8_apply,
    val_main_cst_0_apply, val_main_cst_apply]
  rw [Finset.sum_congr rfl fun w _ => v5_read q k u s t h w]
  rfl

end Cert.ReferenceIdeal.RefValue

end
-- ==== Proof.L1Host.lean ====
/-
  The host operations around the kernel region, read at an index, on the extended reals.

  Before the region each argument q : [1, 1024, 8, 32] is cast to [1024, 8, 32] (dropping the unit axis) and then
  transposed by the permutation [2, 1, 0] to [32, 8, 1024]; so the region's input at (w, h, s) is q[0, s, h, w].
  After the region its output o : [8, 1024, 1024] is transposed by [1, 2, 0] to [1024, 1024, 8] and given a leading unit
  axis; so the final result at (u, s, t, h) is o[h, s, t].
-/
import proofs.«119868_j523986010475_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Host

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The region's first input at (w, h, s) is the first argument at (0, s, h, w). -/
theorem V_main_v1_apply (c : Dev nD) (w : Fin 32) (h : Fin 8) (s : Fin 1024) :
    (V m c main_v1 : S32x8x1024.Idx → Ideal .f32) (ix3 w h s)
      = (m ((c : Thread nD τ).loc main_arg0) : S1x1024x8x32.Idx → Ideal .f32) (ix4 (0 : Fin 1) s h w) := by
  have e : (V m c main_v1 : S32x8x1024.Idx → Ideal .f32)
      = transpose S32x8x1024 [2, 1, 0]
          (shapeCast S1024x8x32 (m ((c : Thread nD τ).loc main_arg0)) shapeCasts_S1x1024x8x32_S1024x8x32)
          transposes_S1024x8x32_S32x8x1024_2_1_0 := by
    show StableHlo.after hostOps0 (fun b => m (c, b)) (Proc.devRef .tc main_v1) = _
    after_results
    rfl
  rw [e]
  refine (transpose_apply _ _ _ _ (ix3 s h w) (fun b => match b with | ⟨0, _⟩ => rfl | ⟨1, _⟩ => rfl | ⟨2, _⟩ => rfl)).trans ?_
  exact shapeCast_1abc_abc_apply _ _ s h w

/-- The region's second input at (w, h, t) is the second argument at (0, t, h, w). -/
theorem V_main_v3_apply (c : Dev nD) (w : Fin 32) (h : Fin 8) (t : Fin 1024) :
    (V m c main_v3 : S32x8x1024.Idx → Ideal .f32) (ix3 w h t)
      = (m ((c : Thread nD τ).loc main_arg1) : S1x1024x8x32.Idx → Ideal .f32) (ix4 (0 : Fin 1) t h w) := by
  have e : (V m c main_v3 : S32x8x1024.Idx → Ideal .f32)
      = transpose S32x8x1024 [2, 1, 0]
          (shapeCast S1024x8x32 (m ((c : Thread nD τ).loc main_arg1)) shapeCasts_S1x1024x8x32_S1024x8x32)
          transposes_S1024x8x32_S32x8x1024_2_1_0 := by
    show StableHlo.after hostOps0 (fun b => m (c, b)) (Proc.devRef .tc main_v3) = _
    after_results
    rfl
  rw [e]
  refine (transpose_apply _ _ _ _ (ix3 t h w) (fun b => match b with | ⟨0, _⟩ => rfl | ⟨1, _⟩ => rfl | ⟨2, _⟩ => rfl)).trans ?_
  exact shapeCast_1abc_abc_apply _ _ t h w

/-- The final result at (u, s, t, h) is the region's output at (h, s, t). -/
theorem tail_apply (c : Dev nD) (u : Fin 1) (s t : Fin 1024) (h : Fin 8) :
    (Pipeline.afterTail₀ cfgs (dats m) 0 (V0 m) [hostOps1] c main_v6 : S1x1024x1024x8.Idx → Ideal .f32) (ix4 u s t h)
      = ((dats m 0 c).arrAt 2 cfg0.N : S8x1024x1024.Idx → Ideal .f32) (ix3 h s t) := by
  unfold Pipeline.afterTail₀
  show StableHlo.after hostOps1 _ (Proc.devRef .tc main_v6) _ = _
  after_results
  -- the added unit axis is read away: none of the operand's axes 1024, 1024, 8 has extent 1
  refine (broadcastInDim_apply _ _ _ (ix4 u s t h) (ix3 s t h) (fun a => match a with
    | ⟨0, _⟩ => by
      show s.val = if (1024 : ℕ) = 1 then 0 else s.val
      rw [if_neg (by decide)]
    | ⟨1, _⟩ => by
      show t.val = if (1024 : ℕ) = 1 then 0 else t.val
      rw [if_neg (by decide)]
    | ⟨2, _⟩ => by
      show h.val = if (8 : ℕ) = 1 then 0 else h.val
      rw [if_neg (by decide)])).trans ?_
  -- the transpose by [1, 2, 0] sends (h, s, t) to (s, t, h)
  refine (transpose_apply _ _ _ (ix3 s t h) (ix3 h s t) (fun b => match b with | ⟨0, _⟩ => rfl | ⟨1, _⟩ => rfl | ⟨2, _⟩ => rfl)).trans ?_
  -- the region's output array is the pipeline's third array
  exact congrFun (Pipeline.withArrays_arr spec0 launch0.win.arr_inj c _ _ 2) (ix3 h s t)

end Cert.KernelIdeal.Host

end
-- ==== Proof.L1Body.lean ====
/-
  The kernel body, read as values.

  At one grid point the body holds two staged blocks x0, x1 : [32, 8, 256] (32 slabs of 8 × 256) and
  writes one block [8, 256, 256]. A counted loop of 32 trips carries an [8, 256, 256] accumulator:
  it starts at the zero block and trip w adds |x0 (w, h, s) − x1 (w, h, t)| at entry (h, s, t) — slab w
  of x0 spread along the last axis against slab w of x1 spread along the middle axis. After the loop
  the accumulator is subtracted from zero and multiplied by the constant.

  First part (any float instance): the carried value the run finds is the plain recursion `part`, and
  what the body leaves in the output's staging buffer is the last step applied to `part` after 32 trips.
  Second part (extended reals): each term read at an index; the recursion at an index is a running
  sum, hence the zero word plus a finite sum over the 32 slabs (associativity of + is all that is used).
-/
import proofs.«119868_j523986010475_2_alg».proof.Proof.Gen.KernelIdeal.Frame
import proofs.«119868_j523986010475_2_alg».proof.Proof.L1Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl

/-- The loop makes 32 trips. -/
theorem trips_eq : k0_t1_loop.trips = 32 := by decide

/-- Trip k loads from offset (k, 0, 0). -/
theorem off_eq : ∀ k : Fin k0_t1_loop.trips, k0_off1 k = ![k.val, 0, 0] := by decide +kernel

/-- Slab k of a staged [32, 8, 256] block: the [1, 8, 256] rectangle at offset (k, 0, 0), what trip k loads. -/
def slab (x : Vec F S32x8x256 .f32) (k : Fin k0_t1_loop.trips) : Vec F S1x8x256 .f32 :=
  View.ld x (Rect.unit (s := S32x8x256) (k0_off1 k) S1x8x256.size (k0_off1_inb k))

/-- One trip of the loop adds to the carried value the body's term of slab k of each input block. -/
theorem trip_eq (𝒱 : Variants) (c : Dev nD) (bd : Option 𝒱.V) (i : grid0.Coords)
    (a2 : Memref sig .tc .vmem S32x8x256 .f32) (h2 : a2.IsWhole) (a3 : Memref sig .tc .vmem S32x8x256 .f32) (h3 : a3.IsWhole)
    (a4 : Memref sig .tc .vmem S8x256x256 .f32) (h4 : a4.IsWhole) (x0 x1 : Vec F S32x8x256 .f32)
    (k : Fin k0_t1_loop.trips) (acc : FVec F S8x256x256 .f32) :
    tripR_k0_t1 (F := F) 𝒱 c bd i a2 h2 a3 h3 a4 h4 (h2.unread x0) (h3.unread x1) k acc
      = k0_pay2 acc (slab x0 k) (slab x1 k) := by
  unfold tripR_k0_t1 trip_k0_t1
  dsimp only
  simp only [View.readAt_eq_ld, h2.read_unread, h3.read_unread]
  rfl

/-- The carried value before trip n: the zero block, then one body term per trip. -/
def part (x0 x1 : Vec F S32x8x256 .f32) : ℕ → FVec F S8x256x256 .f32
  | 0 => k0_pay1
  | n + 1 => if h : n < k0_t1_loop.trips then k0_pay2 (part x0 x1 n) (slab x0 ⟨n, h⟩) (slab x1 ⟨n, h⟩) else part x0 x1 n

/-- The run's carried value is that recursion. -/
theorem st_eq (𝒱 : Variants) (c : Dev nD) (bd : Option 𝒱.V) (i : grid0.Coords)
    (a2 : Memref sig .tc .vmem S32x8x256 .f32) (h2 : a2.IsWhole) (a3 : Memref sig .tc .vmem S32x8x256 .f32) (h3 : a3.IsWhole)
    (a4 : Memref sig .tc .vmem S8x256x256 .f32) (h4 : a4.IsWhole) (x0 x1 : Vec F S32x8x256 .f32) (n : ℕ) :
    st_k0_t1 (F := F) 𝒱 c bd i a2 h2 a3 h3 a4 h4 (h2.unread x0) (h3.unread x1) k0_pay1 n = part x0 x1 n := by
  induction n with
  | zero => rfl
  | succ n ih =>
    rw [st_k0_t1.eq_2, ih]
    unfold st_k0_t1Step
    by_cases h : n < k0_t1_loop.trips
    · rw [dif_pos h, trip_eq, part, dif_pos h]
    · rw [dif_neg h, part, dif_neg h]

/-- What the body leaves in the output's staging buffer: the final scaling applied to the carried value after the last trip. -/
theorem out_eq (c : Dev nD) (i : grid0.Coords)
    (a2 : Memref sig .tc .vmem S32x8x256 .f32) (h2 : a2.IsWhole) (a3 : Memref sig .tc .vmem S32x8x256 .f32) (h3 : a3.IsWhole)
    (a4 : Memref sig .tc .vmem S8x256x256 .f32) (h4 : a4.IsWhole) (x0 x1 : Vec F S32x8x256 .f32) :
    out0_A_2 c i a2 h2 a3 h3 a4 h4 x0 x1 = k0_pay3 (part x0 x1 k0_t1_loop.trips) := by
  unfold out0_A_2
  rw [View.read_writes_eq_canon _ _ _ (cover0_A_2 c i a2 h2 a3 h3 a4 h4 x0 x1)]
  unfold kernelRun0_A
  dsimp only
  rw [View.canon_unit_zero hz3, st_eq]

/-! ## The body's terms at an index, on the extended reals -/

/-- A [1, 8, 256] slab v cast to [8, 256], then to a column [8, 256, 1], then copied along the last axis:
    entry (h, s, t) is v (0, h, s). -/
theorem col_apply {α : Type} (v : S1x8x256.Idx → α) (h1 : S1x8x256.ShapeCasts S8x256) (h2 : S8x256.ShapeCasts S8x256x1)
    (h3 : S8x256x1.Broadcasts S8x256x256) (hh : Fin 8) (s' t' : Fin 256) :
    broadcastTo S8x256x256 (shapeCast S8x256x1 (shapeCast S8x256 v h1) h2) h3 (ix3 hh s' t') = v (ix3 (0 : Fin 1) hh s') := by
  refine (broadcastTo_apply _ _ _ (ix3 hh s' (0 : Fin 1)) (fun a => match a with
    | ⟨0, _⟩ => by show hh.val = if (8 : Nat) = 1 then 0 else hh.val; rw [if_neg (by decide)]
    | ⟨1, _⟩ => by show s'.val = if (256 : Nat) = 1 then 0 else s'.val; rw [if_neg (by decide)]
    | ⟨2, _⟩ => by show 0 = if (1 : Nat) = 1 then 0 else t'.val; rw [if_pos rfl])).trans ?_
  refine (shapeCast_apply _ _ _ (ix2 hh s') (by
    rw [Shape.rowMajor_val_two, Shape.rowMajor_val_three]
    show hh.val * 256 + s'.val = (hh.val * 256 + s'.val) * 1 + 0
    omega)).trans ?_
  exact shapeCast_1ab_ab_apply _ _ hh s'

/-- The same slab cast to a row [8, 1, 256] and copied along the middle axis: entry (h, s, t) is v (0, h, t). -/
theorem row_apply {α : Type} (v : S1x8x256.Idx → α) (h1 : S1x8x256.ShapeCasts S8x256) (h2 : S8x256.ShapeCasts S8x1x256)
    (h3 : S8x1x256.Broadcasts S8x256x256) (hh : Fin 8) (s' t' : Fin 256) :
    broadcastTo S8x256x256 (shapeCast S8x1x256 (shapeCast S8x256 v h1) h2) h3 (ix3 hh s' t') = v (ix3 (0 : Fin 1) hh t') := by
  refine (broadcastTo_apply _ _ _ (ix3 hh (0 : Fin 1) t') (fun a => match a with
    | ⟨0, _⟩ => by show hh.val = if (8 : Nat) = 1 then 0 else hh.val; rw [if_neg (by decide)]
    | ⟨1, _⟩ => by show 0 = if (1 : Nat) = 1 then 0 else s'.val; rw [if_pos rfl]
    | ⟨2, _⟩ => by show t'.val = if (256 : Nat) = 1 then 0 else t'.val; rw [if_neg (by decide)])).trans ?_
  refine (shapeCast_apply _ _ _ (ix2 hh t') (by
    rw [Shape.rowMajor_val_two, Shape.rowMajor_val_three]
    show hh.val * 256 + t'.val = (hh.val * 1 + 0) * 256 + t'.val
    omega)).trans ?_
  exact shapeCast_1ab_ab_apply _ _ hh t'

/-- One trip's term at (h, s, t): the carried entry plus |v9 (0, h, s) − v12 (0, h, t)|. -/
theorem pay2_apply (acc : FVec Ideal S8x256x256 .f32) (v9 v12 : Vec Ideal S1x8x256 .f32) (hh : Fin 8) (s' t' : Fin 256) :
    k0_pay2 acc v9 v12 (ix3 hh s' t')
      = acc (ix3 hh s' t') + max (v9 (ix3 (0 : Fin 1) hh s') - v12 (ix3 (0 : Fin 1) hh t'))
          (-(v9 (ix3 (0 : Fin 1) hh s') - v12 (ix3 (0 : Fin 1) hh t'))) := by
  unfold k0_pay2
  show acc (ix3 hh s' t') + max (_ - _) (-(_ - _)) = _
  rw [col_apply, row_apply]

/-- Slab k at (0, h, s) is the block at (k, h, s). -/
theorem slab_apply {α : Type} (x : S32x8x256.Idx → α) (k : Fin k0_t1_loop.trips) (hk : k.val < 32) (hh : Fin 8) (s' : Fin 256) :
    View.ld (Val := fun _ => α) (e' := .f32) x (Rect.unit (s := S32x8x256) (k0_off1 k) S1x8x256.size (k0_off1_inb k)) (ix3 (0 : Fin 1) hh s')
      = x (ix3 (⟨k.val, hk⟩ : Fin 32) hh s') := by
  show x _ = x _
  refine congrArg x (funext fun a => Fin.ext ?_)
  have ho := off_eq k
  match a with
  | ⟨0, _⟩ => show k0_off1 k 0 + 1 * 0 = k.val; rw [ho]; show k.val + 1 * 0 = k.val; omega
  | ⟨1, _⟩ => show k0_off1 k 1 + 1 * hh.val = hh.val; rw [ho]; show 0 + 1 * hh.val = hh.val; omega
  | ⟨2, _⟩ => show k0_off1 k 2 + 1 * s'.val = s'.val; rw [ho]; show 0 + 1 * s'.val = s'.val; omega

/-- The term trip w adds at (h, s, t): |x0 (w, h, s) − x1 (w, h, t)|, and nothing past the last trip. -/
def term (x0 x1 : Vec Ideal S32x8x256 .f32) (hh : Fin 8) (s' t' : Fin 256) (w : ℕ) : EReal :=
  if h : w < 32 then max (x0 (ix3 (⟨w, h⟩ : Fin 32) hh s') - x1 (ix3 (⟨w, h⟩ : Fin 32) hh t'))
      (-(x0 (ix3 (⟨w, h⟩ : Fin 32) hh s') - x1 (ix3 (⟨w, h⟩ : Fin 32) hh t')))
  else 0

/-- The carried value before trip n, at (h, s, t), is the running sum of the first n terms from the zero word. -/
theorem part_apply (x0 x1 : Vec Ideal S32x8x256 .f32) (hh : Fin 8) (s' t' : Fin 256) (n : ℕ) (hn : n ≤ 32) :
    part x0 x1 n (ix3 hh s' t') = L1Attn.runSum L1Attn.zero (term x0 x1 hh s' t') n := by
  induction n with
  | zero => rfl
  | succ n ih =>
    have hlt : n < 32 := hn
    have ht : n < k0_t1_loop.trips := by rw [trips_eq]; exact hlt
    rw [part, dif_pos ht, pay2_apply, ih (Nat.le_of_lt hlt), L1Attn.runSum]
    unfold slab
    rw [slab_apply x0 ⟨n, ht⟩ hlt hh s', slab_apply x1 ⟨n, ht⟩ hlt hh t']
    unfold term
    rw [dif_pos hlt]

/-- The body's last step at an index: the carried entry subtracted from the zero word, times the constant. -/
theorem pay3_apply (v2 : FVec Ideal S8x256x256 .f32) (y : S8x256x256.Idx) :
    k0_pay3 v2 y = (L1Attn.zero - v2 y) * L1Attn.scale := rfl

/-- WHAT THE BODY LEAVES at (h, s, t) of the output block, from input blocks x0 and x1:
    (−(0 + Σ_w |x0 (w, h, s) − x1 (w, h, t)|)) · c. -/
theorem out_apply (c : Dev nD) (i : grid0.Coords)
    (a2 : Memref sig .tc .vmem S32x8x256 .f32) (h2 : a2.IsWhole) (a3 : Memref sig .tc .vmem S32x8x256 .f32) (h3 : a3.IsWhole)
    (a4 : Memref sig .tc .vmem S8x256x256 .f32) (h4 : a4.IsWhole) (x0 x1 : Vec Ideal S32x8x256 .f32)
    (hh : Fin 8) (s' t' : Fin 256) :
    out0_A_2 (F := Ideal) c i a2 h2 a3 h3 a4 h4 x0 x1 (ix3 hh s' t')
      = (-(L1Attn.zero + ∑ w : Fin 32, max (x0 (ix3 w hh s') - x1 (ix3 w hh t')) (-(x0 (ix3 w hh s') - x1 (ix3 w hh t'))))) * L1Attn.scale := by
  rw [out_eq, pay3_apply, trips_eq, part_apply x0 x1 hh s' t' 32 (Nat.le_refl _), L1Attn.runSum_eq, L1Attn.zero_sub_eq,
    Finset.sum_range]
  refine congrArg (fun z => (-(L1Attn.zero + z)) * L1Attn.scale) (Finset.sum_congr rfl fun w _ => ?_)
  unfold term
  rw [dif_pos w.isLt]

end Cert.KernelIdeal.Body

end
-- ==== Proof.L1Blocks.lean ====
/-
  From blocks to the whole array.

  The idealized kernel runs on a 4 × 4 grid. At the point whose output block index is (0, a, b) it
  reads the block of columns [256a, 256a + 256) of the first operand [32, 8, 1024], the block of
  columns [256b, 256b + 256) of the second, and writes back the block [8, 256, 256] of the output
  [8, 1024, 1024] at rows 256a …, columns 256b …. The body's value at the position (h, s', t') of its
  block is the score of row s' of its first block and row t' of its second; the operands hold the
  argument arrays transposed, entry (w, h, s) being the argument's entry (0, s, h, w). Hence the point
  writes back exactly block (0, a, b) of the array

      GK q k (h, s, t) = score q k s t h = (−(0 + Σ_w |q[0,s,h,w] − k[0,t,h,w]|)) · c.

  The sixteen blocks tile the output: the index (h, s, t) lies in the block of the point with
  a = s / 256 and b = t / 256, and every point writes its block back. So after the run the output
  array is GK of the two argument arrays.
-/
import proofs.«119868_j523986010475_2_alg».proof.Proof.L1Body
import proofs.«119868_j523986010475_2_alg».proof.Proof.L1Host

noncomputable section

namespace Cert.KernelIdeal.Blocks

open Idealize.ShloMosaic Idealize.ShloMosaic.TcCoe Idealize.SL.Sem Idealize.ShloMosaic.ValueIdx Cert.KernelIdeal Cert.KernelIdeal.Gen
open Idealize.ShloMosaic.Pipeline (Dat)
open scoped BigOperators

variable (m : (ℓ : Loc nD τ sig) → Buf (Elt Ideal) ℓ)

/-- The output array [8,1024,1024] as one function of the two argument arrays: entry (h, s, t) is the
    score of rows (s,h) and (t,h). -/
def GK (q k : L1Attn.SArg.Idx → EReal) : S8x1024x1024.Idx → EReal := fun y =>
  L1Attn.score q k ⟨(y 1).val, (y 1).isLt⟩ ⟨(y 2).val, (y 2).isLt⟩ ⟨(y 0).val, (y 0).isLt⟩

theorem GK_apply (q k : L1Attn.SArg.Idx → EReal) (h : Fin 8) (s t : Fin 1024) :
    GK q k (ix3 h s t) = L1Attn.score q k s t h := rfl

/-- The three index maps, decided over the sixteen grid points: both operands' blocks sit at block
    index (0, 0, ·), the first operand's column block is the output's row block, the second's is the
    output's column block, and the output's block index is (0, a, b) with a, b ≤ 3. -/
theorem idx_facts : ∀ t : Fin cfg0.N,
    win0_0.index t (0 : Fin 3) = 0 ∧ win0_0.index t (1 : Fin 3) = 0 ∧ win0_0.index t (2 : Fin 3) = win0_2.index t (1 : Fin 3)
    ∧ win0_1.index t (0 : Fin 3) = 0 ∧ win0_1.index t (1 : Fin 3) = 0 ∧ win0_1.index t (2 : Fin 3) = win0_2.index t (2 : Fin 3)
    ∧ win0_2.index t (0 : Fin 3) = 0 ∧ win0_2.index t (1 : Fin 3) ≤ 3 ∧ win0_2.index t (2 : Fin 3) ≤ 3 :=
  (by decide +kernel : ∀ t : Fin grid0.N, _)

/-- Every output block index (0, a, b) with a, b < 4 is some grid point's. -/
theorem idx_onto : ∀ (a b : Fin 4), ∃ t : Fin cfg0.N, win0_2.index t = ![0, a.val, b.val] :=
  (by decide +kernel : ∀ (a b : Fin 4), ∃ t : Fin grid0.N, win0_2.index t = ![0, a.val, b.val])

/-- The row 256a + s' of the array that position s' of the point's row block stands for. -/
abbrev row (t : Fin cfg0.N) (s' : Fin 256) : Fin 1024 :=
  ⟨win0_2.index t (1 : Fin 3) * 256 + s'.val, by
    have := (idx_facts t).2.2.2.2.2.2.2.1; have := s'.isLt; omega⟩

/-- The column 256b + t' of the array that position t' of the point's column block stands for. -/
abbrev col (t : Fin cfg0.N) (t' : Fin 256) : Fin 1024 :=
  ⟨win0_2.index t (2 : Fin 3) * 256 + t'.val, by
    have := (idx_facts t).2.2.2.2.2.2.2.2; have := t'.isLt; omega⟩

/-- The first operand's block at point t, at (w, h, s'), is the operand at (w, h, 256a + s'). -/
theorem blk0_read (c : Dev nD) (t : Fin cfg0.N) (w : Fin 32) (hh : Fin 8) (s' : Fin 256) :
    iblk m c 0 t (ix3 w hh s') = (V m c main_v1 : S32x8x1024.Idx → Ideal .f32) (ix3 w hh (row t s')) := by
  unfold iblk
  rw [View.read_apply]
  show (V m c main_v1 : S32x8x1024.Idx → Ideal .f32) _ = (V m c main_v1 : S32x8x1024.Idx → Ideal .f32) _
  obtain ⟨e0, e1, e2, -⟩ := idx_facts t
  refine congrArg (V m c main_v1 : S32x8x1024.Idx → Ideal .f32) (funext fun a => Fin.ext ?_)
  match a with
  | ⟨0, _⟩ => show win0_0.index t (0 : Fin 3) * 32 + 1 * w.val = w.val; omega
  | ⟨1, _⟩ => show win0_0.index t (1 : Fin 3) * 8 + 1 * hh.val = hh.val; omega
  | ⟨2, _⟩ => show win0_0.index t (2 : Fin 3) * 256 + 1 * s'.val = win0_2.index t (1 : Fin 3) * 256 + s'.val; omega

/-- The second operand's block at point t, at (w, h, t'), is the operand at (w, h, 256b + t'). -/
theorem blk1_read (c : Dev nD) (t : Fin cfg0.N) (w : Fin 32) (hh : Fin 8) (t' : Fin 256) :
    iblk m c 1 t (ix3 w hh t') = (V m c main_v3 : S32x8x1024.Idx → Ideal .f32) (ix3 w hh (col t t')) := by
  unfold iblk
  rw [View.read_apply]
  show (V m c main_v3 : S32x8x1024.Idx → Ideal .f32) _ = (V m c main_v3 : S32x8x1024.Idx → Ideal .f32) _
  obtain ⟨-, -, -, e0, e1, e2, -⟩ := idx_facts t
  refine congrArg (V m c main_v3 : S32x8x1024.Idx → Ideal .f32) (funext fun a => Fin.ext ?_)
  match a with
  | ⟨0, _⟩ => show win0_1.index t (0 : Fin 3) * 32 + 1 * w.val = w.val; omega
  | ⟨1, _⟩ => show win0_1.index t (1 : Fin 3) * 8 + 1 * hh.val = hh.val; omega
  | ⟨2, _⟩ => show win0_1.index t (2 : Fin 3) * 256 + 1 * t'.val = win0_2.index t (2 : Fin 3) * 256 + t'.val; omega

/-- Position (h, s', t') of the output block at point t is the array index (h, 256a + s', 256b + t'). -/
theorem blk2_emb (t : Fin cfg0.N) (hh : Fin 8) (s' t' : Fin 256) :
    (((cfg0.win 2).blk t).view.emb (ix3 hh s' t') : S8x1024x1024.Idx) = ix3 hh (row t s') (col t t') := by
  obtain ⟨-, -, -, -, -, -, e0, -⟩ := idx_facts t
  refine funext fun a => Fin.ext ?_
  match a with
  | ⟨0, _⟩ => show win0_2.index t (0 : Fin 3) * 8 + 1 * hh.val = hh.val; omega
  | ⟨1, _⟩ => show win0_2.index t (1 : Fin 3) * 256 + 1 * s'.val = win0_2.index t (1 : Fin 3) * 256 + s'.val; omega
  | ⟨2, _⟩ => show win0_2.index t (2 : Fin 3) * 256 + 1 * t'.val = win0_2.index t (2 : Fin 3) * 256 + t'.val; omega

/-- What point t writes back is block t of GK of the two argument arrays. -/
theorem flushed_eq (c : Dev nD) (t : Fin cfg0.N) :
    (dats m 0 c).flushed 2 t = ((cfg0.win 2).blk t).view.read (Elt Ideal)
      (GK (m ((c : Thread nD τ).loc main_arg0)) (m ((c : Thread nD τ).loc main_arg1))) := by
  show (cfg0.win 2).cut (grid0.coords t) ((dats m 0 c).after 2 t) = _
  rw [after0_2]
  unfold outsAt0
  funext y
  obtain ⟨hh, s', t', rfl⟩ : ∃ (hh : Fin 8) (s' t' : Fin 256), y = ix3 hh s' t' := ⟨y 0, y 1, y 2, eq_ix3 y⟩
  show out0_A_2 (F := Ideal) c (grid0.coords t) (ms0_0 t) (hs0_0 t) (ms0_1 t) (hs0_1 t) (ms0_2 t) (hs0_2 t)
      (iblk m c 0 t) (iblk m c 1 t) (ix3 hh s' t') = _
  refine (Body.out_apply c (grid0.coords t) (ms0_0 t) (hs0_0 t) (ms0_1 t) (hs0_1 t) (ms0_2 t) (hs0_2 t)
      (iblk m c 0 t) (iblk m c 1 t) hh s' t').trans ?_
  rw [View.read_apply, blk2_emb t hh s' t']
  show _ = GK (m ((c : Thread nD τ).loc main_arg0)) (m ((c : Thread nD τ).loc main_arg1)) (ix3 hh (row t s') (col t t'))
  rw [GK_apply]
  unfold L1Attn.score L1Attn.gap
  refine congrArg (fun x => (-(L1Attn.zero + x)) * L1Attn.scale) (Finset.sum_congr rfl fun w _ => ?_)
  rw [blk0_read m c t w hh s', blk1_read m c t w hh t',
    Host.V_main_v1_apply m c w hh (row t s'), Host.V_main_v3_apply m c w hh (col t t')]

/-- An index of the array is in point t's block iff each coordinate is in the block's range on its axis. -/
theorem mem_blk (t : Fin cfg0.N) (i : S8x1024x1024.Idx) :
    i ∈ ((cfg0.win 2).blk t).view.set ↔ ∀ a : Fin 3, win0_2.index t a * S8x256x256.size a ≤ (i a).val
      ∧ (i a).val < win0_2.index t a * S8x256x256.size a + S8x256x256.size a := by
  show i ∈ ((View.whole main_v4).slice (win0_2.rect t)).set ↔ _
  rw [View.set_slice_whole, Rect.mem_set_unit]
  exact Iff.rfl

/-- Every index (h, s, t) of the array is in the block of the point with a = s / 256, b = t / 256, and that
    point writes its block back. -/
theorem cover (i : S8x1024x1024.Idx) :
    ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 1024 := (i 2).isLt
  obtain ⟨t, ht⟩ := idx_onto ⟨(i 1).val / 256, by omega⟩ ⟨(i 2).val / 256, by omega⟩
  have q0 : win0_2.index t (0 : Fin 3) = 0 := congrFun ht 0
  have q1 : win0_2.index t (1 : Fin 3) = (i 1).val / 256 := congrFun ht 1
  have q2 : win0_2.index t (2 : Fin 3) = (i 2).val / 256 := congrFun ht 2
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- The output array after the run is GK of the two argument arrays. -/
theorem final (c : Dev nD) :
    (dats m 0 c).arrAt 2 cfg0.N
      = GK (m ((c : Thread nD τ).loc main_arg0)) (m ((c : Thread nD τ).loc main_arg1)) :=
  (dats m 0 c).arrAt_eq_of_cover 2
    (GK (m ((c : Thread nD τ).loc main_arg0)) (m ((c : Thread nD τ).loc main_arg1)))
    (fun t _ => flushed_eq m c t) cover

end Cert.KernelIdeal.Blocks

end
-- ==== Proof.L1Run.lean ====
/-
  The idealized kernel program's run, read as a value: its result array is G of the two argument arrays.

  The region's output array o : [8, 1024, 1024] ends holding, at (h, s, t), the score of row (s, h) of q
  against row (t, h) of k; the two host operations after the region move that entry to (0, s, t, h) of
  the result. The argument arrays are staged, never written.
-/
import proofs.«119868_j523986010475_2_alg».proof.Proof.L1Host
import proofs.«119868_j523986010475_2_alg».proof.Proof.L1Blocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen

variable (m : (ℓ : Loc nD τ sig) → Buf (Elt Ideal) ℓ) (ρ : Dev nD → PrngReg)

/-- The result array after the host operations that follow the region is G of the argument arrays. -/
theorem result_eq (c : Dev nD) :
    (Pipeline.afterTail₀ cfgs (dats m) 0 (V0 m) [hostOps1] c main_v6 : S1x1024x1024x8.Idx → Ideal .f32)
      = L1Attn.G (m ((c : Thread nD τ).loc main_arg0)) (m ((c : Thread nD τ).loc main_arg1)) := by
  funext j
  obtain ⟨u, s, t, h, rfl⟩ : ∃ (u : Fin 1) (s t : Fin 1024) (h : Fin 8), j = ix4 u s t h :=
    ⟨j 0, j 1, j 2, j 3, eq_ix4 j⟩
  rw [Cert.KernelIdeal.Host.tail_apply m c u s t h, Cert.KernelIdeal.Blocks.final m c, L1Attn.G_apply]
  exact Cert.KernelIdeal.Blocks.GK_apply _ _ h s t

/-- Every weakly fair execution of the idealized kernel program terminates with the result array at G of the
    argument arrays and the argument arrays unchanged. -/
theorem run : θ_run defs (onTc (τ := τ) (main (F := Ideal))) ⟨m, fun _ => 0, ρ⟩ fun r => ∀ c : Dev nD,
      r.2.mem ((c.tc : Thread nD τ).loc main_v6) = L1Attn.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Run

end
-- ==== Proof.lean ====
/-
  The L1 attention scores: for q, k : [1, 1024, 8, 32] the result at (0, s, t, h) is
  (−(0 + Σ_w |q[0,s,h,w] − k[0,t,h,w]|)) · c, with c the float nearest 1/√32 (one word, shared by both programs).

  The kernel transposes q and k to [32, 8, 1024], tiles the (s, t) plane into 4 × 4 blocks of 256 × 256,
  and at each block runs a loop of 32 trips that adds |q-slab − k-slab| into an [8, 256, 256] accumulator
  started at zero, then stores (0 − acc) · c; two host operations put the [8, 1024, 1024] output back in
  [1, 1024, 1024, 8] order. The reference replicates, subtracts, takes absolute values, sums the last axis,
  negates and scales. On the extended reals the two agree entry by entry: a running sum from zero is zero
  plus the finite sum (associativity of +), and 0 − x = −x. No finiteness of the inputs is needed for that.

  Modules: L1Spec (the function G and the two laws), L1Reference (the reference is G), L1Body (the loop and the
  body's value at an index), L1Host (the host operations around the region at an index), L1Blocks (blocks to the
  whole output array), L1Run (the kernel program's run ends at G). Here: the five claims.
-/
import proofs.«119868_j523986010475_2_alg».proof.Defs
import proofs.«119868_j523986010475_2_alg».proof.Proof.Gen.Kernel
import proofs.«119868_j523986010475_2_alg».proof.Proof.Gen.Kernel.Skeleton
import proofs.«119868_j523986010475_2_alg».proof.Proof.Gen.Kernel.Loops
import proofs.«119868_j523986010475_2_alg».proof.Proof.Gen.Kernel.Launch
import proofs.«119868_j523986010475_2_alg».proof.Proof.Gen.Kernel.Points
import proofs.«119868_j523986010475_2_alg».proof.Proof.Gen.Kernel.Frame
import proofs.«119868_j523986010475_2_alg».proof.Proof.Gen.KernelIdeal
import proofs.«119868_j523986010475_2_alg».proof.Proof.Gen.KernelIdeal.Skeleton
import proofs.«119868_j523986010475_2_alg».proof.Proof.Gen.KernelIdeal.Loops
import proofs.«119868_j523986010475_2_alg».proof.Proof.Gen.KernelIdeal.Launch
import proofs.«119868_j523986010475_2_alg».proof.Proof.Gen.KernelIdeal.Points
import proofs.«119868_j523986010475_2_alg».proof.Proof.Gen.KernelIdeal.Frame
import proofs.«119868_j523986010475_2_alg».proof.Proof.Gen.ReferenceIdeal
import proofs.«119868_j523986010475_2_alg».proof.Proof.Gen.Pre_finite_inputs
import proofs.«119868_j523986010475_2_alg».proof.Proof.Gen.ReferenceIdeal.Run
import proofs.«119868_j523986010475_2_alg».proof.Proof.Gen.ReferenceIdeal.Read
import Idealize.ShloMosaic.Adequacy
import Idealize.ShloMosaic.Init

import proofs.«119868_j523986010475_2_alg».proof.Proof.L1Reference
import proofs.«119868_j523986010475_2_alg».proof.Proof.L1Run

noncomputable section

open Idealize.ShloMosaic Idealize.ShloMosaic.TcCoe Idealize.SL.Sem

namespace Cert.Proof.L1Claims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the result array at G of the argument arrays: the kernel's
    running sums over the 32 slabs and the reference's one sum over the last axis are the same sums. -/
theorem algebraic : Cert.algebraic_KernelIdeal_ReferenceIdeal := by
  intro m ρ m' ρ' _ hagree
  refine ⟨fun c => L1Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq, (hagree c).1, (hagree c).2]

end Cert.Proof.L1Claims

namespace Cert.Proof

open Cert.Proof.L1Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
